-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x6x32x32x30 : Shape := ⟨5, ![8, 6, 32, 32, 30]⟩
abbrev S50000x64 : Shape := ⟨2, ![50000, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel

variable [Facts]

def fn {F : FTy → Type} [FloatOps F] (main_arg0 : IVec S8x6x32x32x30 32) (main_arg1 : FVec F S50000x64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  main_v3
-- ==== Kernel.lean ====
abbrev S8x6x32x32x30 : Shape := ⟨5, ![8, 6, 32, 32, 30]⟩
abbrev S50000x64 : Shape := ⟨2, ![50000, 64]⟩
abbrev S_ : Shape := ⟨0, ![]⟩
abbrev S8x6x32x32x30x1 : Shape := ⟨6, ![8, 6, 32, 32, 30, 1]⟩
abbrev S8x6x32x32x30x64 : Shape := ⟨6, ![8, 6, 32, 32, 30, 64]⟩
abbrev S8x6x32x32x64 : Shape := ⟨5, ![8, 6, 32, 32, 64]⟩
abbrev S1x1x16x32x30x64 : Shape := ⟨6, ![1, 1, 16, 32, 30, 64]⟩
abbrev S1x1x16x32x64 : Shape := ⟨5, ![1, 1, 16, 32, 64]⟩
abbrev S16x32x30x64 : Shape := ⟨4, ![16, 32, 30, 64]⟩
abbrev S16x32x64 : Shape := ⟨3, ![16, 32, 64]⟩
abbrev S16x32x1x64 : Shape := ⟨4, ![16, 32, 1, 64]⟩
abbrev S16x32x30 : Shape := ⟨3, ![16, 32, 30]⟩
abbrev S16x32 : Shape := ⟨2, ![16, 32]⟩
abbrev S16x32x1 : Shape := ⟨3, ![16, 32, 1]⟩
abbrev S16x32x30x1 : Shape := ⟨4, ![16, 32, 30, 1]⟩
abbrev S8x6x64x32x32 : Shape := ⟨5, ![8, 6, 64, 32, 32]⟩
abbrev S8x384x32x32 : Shape := ⟨4, ![8, 384, 32, 32]⟩

abbrev nBuf : Space → Nat
  | .hbm => 15
  | .vmem => 4
  | .smem => 0
  | _ => 0

abbrev bufTy : (tb : Table) → Fin (tcTables nBuf tb) → BufTy
  | .hbm, ⟨0, _⟩ => ⟨S8x6x32x32x30, .i32⟩
  | .hbm, ⟨1, _⟩ => ⟨S50000x64, .f32⟩
  | .hbm, ⟨2, _⟩ => ⟨S50000x64, .bf16⟩
  | .hbm, ⟨3, _⟩ => ⟨S_, .i32⟩
  | .hbm, ⟨4, _⟩ => ⟨S8x6x32x32x30, .i32⟩
  | .hbm, ⟨5, _⟩ => ⟨S8x6x32x32x30, .i1⟩
  | .hbm, ⟨6, _⟩ => ⟨S_, .i32⟩
  | .hbm, ⟨7, _⟩ => ⟨S8x6x32x32x30, .i32⟩
  | .hbm, ⟨8, _⟩ => ⟨S8x6x32x32x30, .i32⟩
  | .hbm, ⟨9, _⟩ => ⟨S8x6x32x32x30, .i32⟩
  | .hbm, ⟨10, _⟩ => ⟨S8x6x32x32x30x1, .i32⟩
  | .hbm, ⟨11, _⟩ => ⟨S8x6x32x32x30x64, .bf16⟩
  | .hbm, ⟨12, _⟩ => ⟨S8x6x32x32x64, .f32⟩
  | .hbm, ⟨13, _⟩ => ⟨S8x6x64x32x32, .f32⟩
  | .hbm, ⟨14, _⟩ => ⟨S8x384x32x32, .f32⟩
  | .local _ .vmem, ⟨0, _⟩ => ⟨S1x1x16x32x30x64, .bf16⟩
  | .local _ .vmem, ⟨1, _⟩ => ⟨S1x1x16x32x30x64, .bf16⟩
  | .local _ .vmem, ⟨2, _⟩ => ⟨S1x1x16x32x64, .f32⟩
  | .local _ .vmem, ⟨3, _⟩ => ⟨S1x1x16x32x64, .f32⟩
  | _, _ => ⟨S8x6x32x32x30, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![8, 6, 2], ![false, false, false]⟩

def cc0_transform_0 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x16x32x30x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  bitsLt_bf16_f32 : FTy.bits .bf16 < FTy.bits .f32
  bcast_S_S8x6x32x32x30 : S_.BroadcastsInDim S8x6x32x32x30 (![] : Fin 0 → Fin S8x6x32x32x30.rank)
  bcast_S8x6x32x32x30_S8x6x32x32x30x1_0_1_2_3_4 : S8x6x32x32x30.BroadcastsInDim S8x6x32x32x30x1 (![0, 1, 2, 3, 4] : Fin 5 → Fin S8x6x32x32x30x1.rank)
  inb_S1x1x16x32x30x64_S1x1x16x32x30x64_0_0_0_0_0_0 : ∀ a, (![0, 0, 0, 0, 0, 0] : Fin 6 → Nat) a + S1x1x16x32x30x64.size a ≤ S1x1x16x32x30x64.size a
  h_S1x1x16x32x30x64 : 0 < S1x1x16x32x30x64.numel
  shapeCasts_S1x1x16x32x30x64_S16x32x30x64 : S1x1x16x32x30x64.ShapeCasts S16x32x30x64
  reduces_S16x32x30x64_S16x32x64 : S16x32x30x64.Reduces [2] S16x32x64
  shapeCasts_S16x32x64_S16x32x1x64 : S16x32x64.ShapeCasts S16x32x1x64
  broadcasts_S16x32x1x64_S16x32x30x64 : S16x32x1x64.Broadcasts S16x32x30x64
  reduces_S16x32x30x64_S16x32x30 : S16x32x30x64.Reduces [3] S16x32x30
  reduces_S16x32x30_S16x32 : S16x32x30.Reduces [2] S16x32
  shapeCasts_S16x32_S16x32x1 : S16x32.ShapeCasts S16x32x1
  broadcasts_S16x32x1_S16x32x30 : S16x32x1.Broadcasts S16x32x30
  shapeCasts_S16x32x30_S16x32x30x1 : S16x32x30.ShapeCasts S16x32x30x1
  broadcasts_S16x32x30x1_S16x32x30x64 : S16x32x30x1.Broadcasts S16x32x30x64
  inb_S1x1x16x32x64_S1x1x16x32x64_0_0_0_0_0 : ∀ a, (![0, 0, 0, 0, 0] : Fin 5 → Nat) a + S1x1x16x32x64.size a ≤ S1x1x16x32x64.size a
  h_S1x1x16x32x64 : 0 < S1x1x16x32x64.numel
  shapeCasts_S1x1x16x32x64_S16x32x64 : S1x1x16x32x64.ShapeCasts S16x32x64
  shapeCasts_S16x32x64_S1x1x16x32x64 : S16x32x64.ShapeCasts S1x1x16x32x64
  transposes_S8x6x32x32x64_S8x6x64x32x32_0_1_4_2_3 : S8x6x32x32x64.Transposes [0, 1, 4, 2, 3] S8x6x64x32x32
  shapeCasts_S8x6x64x32x32_S8x384x32x32 : S8x6x64x32x32.ShapeCasts S8x384x32x32
  gather_S50000x64_S8x6x32x32x30x1_S8x6x32x32x30x64_5_0_n_n_0_5_164_wf : GatherDims.WF S50000x64 S8x6x32x32x30x1 S8x6x32x32x30x64 [5] [0] [] [0] [] 5 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16x32x30x64.size a ≤ S8x6x32x32x30x64.size a
  hwx0_0 : ∀ i : grid0.Coords, EltTy.bits .bf16 = 32 ∨ (Rect.block (s := S8x6x32x32x30x64) S1x1x16x32x30x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16x32x64.size a ≤ S8x6x32x32x64.size a
  hwx0_1 : ∀ i : grid0.Coords, EltTy.bits .f32 = 32 ∨ (Rect.block (s := S8x6x32x32x64) S1x1x16x32x64.size (cc0_transform_1 i) (hinb0_1 i)).WholeWords (EltTy.packing .f32)

variable [Facts₀]

def gather_S50000x64_S8x6x32x32x30x1_S8x6x32x32x30x64_5_0_n_n_0_5_164 : GatherDims S50000x64 S8x6x32x32x30x1 S8x6x32x32x30x64 where
  offsetDims := [5]
  collapsedSliceDims := [0]
  operandBatchingDims := []
  startIndicesBatchingDims := []
  startIndexMap := [0]
  indexVectorDim := 5
  sliceSizes := ![1, 64]
  wf := gather_S50000x64_S8x6x32x32x30x1_S8x6x32x32x30x64_5_0_n_n_0_5_164_wf

abbrev win0_0 : Pipeline.Window sig grid0 :=
  Pipeline.Window.ofSpec (Memref.whole main_v7) S1x1x16x32x30x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1x16x32x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x6x32x32x30 : Shape := ⟨5, ![8, 6, 32, 32, 30]⟩
abbrev S50000x64 : Shape := ⟨2, ![50000, 64]⟩
abbrev S_ : Shape := ⟨0, ![]⟩
abbrev S8x6x32x32x30x1 : Shape := ⟨6, ![8, 6, 32, 32, 30, 1]⟩
abbrev S8x6x32x32x30x64 : Shape := ⟨6, ![8, 6, 32, 32, 30, 64]⟩
abbrev S8x6x32x32x64 : Shape := ⟨5, ![8, 6, 32, 32, 64]⟩
abbrev S8x6x32x32x1x64 : Shape := ⟨6, ![8, 6, 32, 32, 1, 64]⟩
abbrev S8x6x32x32 : Shape := ⟨4, ![8, 6, 32, 32]⟩
abbrev S8x6x32x32x1 : Shape := ⟨5, ![8, 6, 32, 32, 1]⟩
abbrev S8x6x64x32x32 : Shape := ⟨5, ![8, 6, 64, 32, 32]⟩
abbrev S8x384x32x32 : Shape := ⟨4, ![8, 384, 32, 32]⟩

abbrev nBuf : Space → Nat
  | .hbm => 39
  | .vmem => 0
  | .smem => 0
  | _ => 0

abbrev bufTy : (tb : Table) → Fin (tcTables nBuf tb) → BufTy
  | .hbm, ⟨0, _⟩ => ⟨S8x6x32x32x30, .i32⟩
  | .hbm, ⟨1, _⟩ => ⟨S50000x64, .f32⟩
  | .hbm, ⟨2, _⟩ => ⟨S_, .i32⟩
  | .hbm, ⟨3, _⟩ => ⟨S8x6x32x32x30, .i32⟩
  | .hbm, ⟨4, _⟩ => ⟨S8x6x32x32x30, .i1⟩
  | .hbm, ⟨5, _⟩ => ⟨S_, .i32⟩
  | .hbm, ⟨6, _⟩ => ⟨S8x6x32x32x30, .i32⟩
  | .hbm, ⟨7, _⟩ => ⟨S8x6x32x32x30, .i32⟩
  | .hbm, ⟨8, _⟩ => ⟨S8x6x32x32x30, .i32⟩
  | .hbm, ⟨9, _⟩ => ⟨S8x6x32x32x30x1, .i32⟩
  | .hbm, ⟨10, _⟩ => ⟨S8x6x32x32x30x64, .f32⟩
  | .hbm, ⟨11, _⟩ => ⟨S_, .f32⟩
  | .hbm, ⟨12, _⟩ => ⟨S8x6x32x32x64, .f32⟩
  | .hbm, ⟨13, _⟩ => ⟨S8x6x32x32x1x64, .f32⟩
  | .hbm, ⟨14, _⟩ => ⟨S8x6x32x32x30x64, .f32⟩
  | .hbm, ⟨15, _⟩ => ⟨S8x6x32x32x30x64, .f32⟩
  | .hbm, ⟨16, _⟩ => ⟨S_, .f32⟩
  | .hbm, ⟨17, _⟩ => ⟨S8x6x32x32x30, .f32⟩
  | .hbm, ⟨18, _⟩ => ⟨S_, .f32⟩
  | .hbm, ⟨19, _⟩ => ⟨S8x6x32x32, .f32⟩
  | .hbm, ⟨20, _⟩ => ⟨S_, .f32⟩
  | .hbm, ⟨21, _⟩ => ⟨S8x6x32x32, .f32⟩
  | .hbm, ⟨22, _⟩ => ⟨S8x6x32x32, .f32⟩
  | .hbm, ⟨23, _⟩ => ⟨S8x6x32x32x1, .f32⟩
  | .hbm, ⟨24, _⟩ => ⟨S8x6x32x32x30, .f32⟩
  | .hbm, ⟨25, _⟩ => ⟨S8x6x32x32x30, .f32⟩
  | .hbm, ⟨26, _⟩ => ⟨S8x6x32x32x30, .f32⟩
  | .hbm, ⟨27, _⟩ => ⟨S_, .f32⟩
  | .hbm, ⟨28, _⟩ => ⟨S8x6x32x32, .f32⟩
  | .hbm, ⟨29, _⟩ => ⟨S8x6x32x32x1, .f32⟩
  | .hbm, ⟨30, _⟩ => ⟨S8x6x32x32x30, .f32⟩
  | .hbm, ⟨31, _⟩ => ⟨S8x6x32x32x30, .f32⟩
  | .hbm, ⟨32, _⟩ => ⟨S8x6x32x32x30x1, .f32⟩
  | .hbm, ⟨33, _⟩ => ⟨S8x6x32x32x30x64, .f32⟩
  | .hbm, ⟨34, _⟩ => ⟨S8x6x32x32x30x64, .f32⟩
  | .hbm, ⟨35, _⟩ => ⟨S_, .f32⟩
  | .hbm, ⟨36, _⟩ => ⟨S8x6x32x32x64, .f32⟩
  | .hbm, ⟨37, _⟩ => ⟨S8x6x64x32x32, .f32⟩
  | .hbm, ⟨38, _⟩ => ⟨S8x384x32x32, .f32⟩
  | _, _ => ⟨S8x6x32x32x30, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S8x6x32x32x30 : S_.BroadcastsInDim S8x6x32x32x30 (![] : Fin 0 → Fin S8x6x32x32x30.rank)
  bcast_S8x6x32x32x30_S8x6x32x32x30x1_0_1_2_3_4 : S8x6x32x32x30.BroadcastsInDim S8x6x32x32x30x1 (![0, 1, 2, 3, 4] : Fin 5 → Fin S8x6x32x32x30x1.rank)
  reducesTo_S8x6x32x32x30x64_S8x6x32x32x64_d4 : S8x6x32x32x30x64.ReducesTo [4] S8x6x32x32x64
  h_S_ : 0 < S_.numel
  bcast_S8x6x32x32x64_S8x6x32x32x1x64_0_1_2_3_5 : S8x6x32x32x64.BroadcastsInDim S8x6x32x32x1x64 (![0, 1, 2, 3, 5] : Fin 5 → Fin S8x6x32x32x1x64.rank)
  bcast_S8x6x32x32x1x64_S8x6x32x32x30x64_0_1_2_3_4_5 : S8x6x32x32x1x64.BroadcastsInDim S8x6x32x32x30x64 (![0, 1, 2, 3, 4, 5] : Fin 6 → Fin S8x6x32x32x30x64.rank)
  reducesTo_S8x6x32x32x30x64_S8x6x32x32x30_d5 : S8x6x32x32x30x64.ReducesTo [5] S8x6x32x32x30
  reducesTo_S8x6x32x32x30_S8x6x32x32_d4 : S8x6x32x32x30.ReducesTo [4] S8x6x32x32
  bcast_S_S8x6x32x32 : S_.BroadcastsInDim S8x6x32x32 (![] : Fin 0 → Fin S8x6x32x32.rank)
  bcast_S8x6x32x32_S8x6x32x32x1_0_1_2_3 : S8x6x32x32.BroadcastsInDim S8x6x32x32x1 (![0, 1, 2, 3] : Fin 4 → Fin S8x6x32x32x1.rank)
  bcast_S8x6x32x32x1_S8x6x32x32x30_0_1_2_3_4 : S8x6x32x32x1.BroadcastsInDim S8x6x32x32x30 (![0, 1, 2, 3, 4] : Fin 5 → Fin S8x6x32x32x30.rank)
  bcast_S8x6x32x32x30x1_S8x6x32x32x30x64_0_1_2_3_4_5 : S8x6x32x32x30x1.BroadcastsInDim S8x6x32x32x30x64 (![0, 1, 2, 3, 4, 5] : Fin 6 → Fin S8x6x32x32x30x64.rank)
  transposes_S8x6x32x32x64_S8x6x64x32x32_0_1_4_2_3 : S8x6x32x32x64.Transposes [0, 1, 4, 2, 3] S8x6x64x32x32
  shapeCasts_S8x6x64x32x32_S8x384x32x32 : S8x6x64x32x32.ShapeCasts S8x384x32x32
  gather_S50000x64_S8x6x32x32x30x1_S8x6x32x32x30x64_5_0_n_n_0_5_164_wf : GatherDims.WF S50000x64 S8x6x32x32x30x1 S8x6x32x32x30x64 [5] [0] [] [0] [] 5 ![1, 64]

variable [Facts₀]

def gather_S50000x64_S8x6x32x32x30x1_S8x6x32x32x30x64_5_0_n_n_0_5_164 : GatherDims S50000x64 S8x6x32x32x30x1 S8x6x32x32x30x64 where
  offsetDims := [5]
  collapsedSliceDims := [0]
  operandBatchingDims := []
  startIndicesBatchingDims := []
  startIndexMap := [0]
  indexVectorDim := 5
  sliceSizes := ![1, 64]
  wf := gather_S50000x64_S8x6x32x32x30x1_S8x6x32x32x30x64_5_0_n_n_0_5_164_wf

class Facts : Prop extends Facts₀ where

variable [Facts]
-- ==== Proof.Pooling.lean ====
/-
  Attention pooling of one group of token embeddings, as a function on the extended reals.

  A group is a matrix `g : Fin L → Fin E → EReal`: `L` tokens, each an embedding of width `E`.
  * the summary vector is the sum of the tokens, `V e = Σ_l g l e`;
  * a token's score is its inner product with the summary, `b l = Σ_e g l e · V e`;
  * the scores go through a softmax over the tokens, written as jax writes it: subtract the largest score
    (the maximum is taken from `-∞` and then once more against `-∞`), exponentiate, divide by the sum;
  * the pooled vector is the attention-weighted sum of the tokens, `ws e = Σ_l g l e · c l`.
  Nothing is proved about these functions: both programs of the certificate compute exactly them, group by group,
  and the certificate only has to read each program's operations at an index.
-/
import Idealize.ShloMosaic.PureOps.Ideal
import Idealize.ShloMosaic.Lib.ValueIdxRank6

noncomputable section

namespace Cert.Pooling

open Idealize.ShloMosaic Idealize.ShloMosaic.ValueIdx

variable {L E : ℕ}

/-- The f32 pattern of `-∞`, the value both maxima start from. -/
abbrev negInf : EReal := Ideal.ofBits .f32 0xFF800000#32

/-- The summary vector: the sum of the group's tokens. -/
def summary (g : Fin L → Fin E → EReal) (e : Fin E) : EReal := ∑ l : Fin L, g l e

/-- A token's score: its inner product with the summary vector. -/
def score (g : Fin L → Fin E → EReal) (l : Fin L) : EReal := ∑ e : Fin E, g l e * summary g e

/-- The largest score, as the softmax takes it: the maximum over the tokens from `-∞`, then against `-∞` again. -/
def top (g : Fin L → Fin E → EReal) : EReal := max negInf ((Finset.univ : Finset (Fin L)).fold max negInf (score g))

/-- A token's unnormalised weight: the exponential of its score less the largest. -/
def weight (g : Fin L → Fin E → EReal) (l : Fin L) : EReal := Ideal.exp (score g l - top g)

/-- A token's attention: its weight over the sum of all the weights. -/
def attn (g : Fin L → Fin E → EReal) (l : Fin L) : EReal := Ideal.div (weight g l) (∑ l' : Fin L, weight g l')

/-- The pooled vector: the attention-weighted sum of the tokens. -/
def pooled (g : Fin L → Fin E → EReal) (e : Fin E) : EReal := ∑ l : Fin L, g l e * attn g l

/-- The whole computation: an array of groups `[8, 6, 32, 32, 30, 64]` (batch, time, height, width, token, embedding)
    pooled group by group into `[8, 6, 32, 32, 64]`: at `(b, t, h, w, e)` the pooled vector, at `e`, of the group of
    tokens at `(b, t, h, w)`. -/
def poolAll (wg : (⟨6, ![8, 6, 32, 32, 30, 64]⟩ : Shape).Idx → EReal) : (⟨5, ![8, 6, 32, 32, 64]⟩ : Shape).Idx → EReal :=
  fun i => pooled (fun l e => wg (ix6 (i 0 : Fin 8) (i 1 : Fin 6) (i 2 : Fin 32) (i 3 : Fin 32) l e)) (i 4 : Fin 64)

theorem poolAll_apply (wg : (⟨6, ![8, 6, 32, 32, 30, 64]⟩ : Shape).Idx → EReal) (b : Fin 8) (t : Fin 6) (h w : Fin 32) (e : Fin 64) :
    poolAll wg (ix5 b t h w e) = pooled (fun l e' => wg (ix6 b t h w l e')) e := rfl

end Cert.Pooling

end
-- ==== Proof.LibAxisRead.lean ====
/-
  Keepdims casts, broadcasts along one axis and single-axis reductions of small-rank arrays, read at an index
  given by coordinates, at any extents.

  A `jnp.sum(x, axis, keepdims=True)` or a `c[..., None]` inside a kernel prints as a reduction, a shape cast that
  inserts a unit axis where the reduced axis was, and a broadcast back along that axis. Each lemma below reads one
  such operation at an index written `ixN …` (Lib/ValueIdx.lean) as its operand at an index written the same way,
  so that it applies to a printed operation by unification:
  * a cast that inserts a unit axis in the middle or at the end ([a,b,d] → [a,b,1,d], [a,b] → [a,b,1],
    [a,b,c] → [a,b,c,1]) or adds / drops two leading unit axes ([a,b,c] → [1,1,a,b,c], [1,1,a,b,c,d] → [a,b,c,d]);
  * a broadcast along the unit axis ([a,b,1,d] → [a,b,c,d], [a,b,1] → [a,b,c], [a,b,c,1] → [a,b,c,d]);
  * at the ideal values, a float sum over one axis of a rank-4 or rank-3 array as the `Fin`-indexed sum over that
    axis's coordinate, and a float maximum over the last axis of a rank-3 array as the fold of `max` over it; the
    host's sums and maximum over one axis of a rank-6 or rank-5 array likewise.
  The reductions are stated with the accumulator's evidence spelt as a printed kernel spells it.
-/
import Idealize.ShloMosaic.Lib.ValueIdx
import Idealize.ShloMosaic.Lib.ValueIdxRank6
import Idealize.ShloMosaic.Lib.Pipeline.Value
import Idealize.ShloMosaic.PureOps.Ideal.Laws

namespace Cert.LibAxisRead

open Idealize.ShloMosaic Idealize.ShloMosaic.ValueIdx

variable {α : Type}

/-! ## Shape casts that move unit axes -/

/-- A `[1, 1, a, b, c, d]` array cast to `[a, b, c, d]` reads, at `(p, q, r, s)`, the operand at `(0, 0, p, q, r, s)`. -/
theorem shapeCast_11abcd_abcd_apply {a b c d : ℕ} (x : (⟨6, ![1, 1, a, b, c, d]⟩ : Shape).Idx → α)
    (h : (⟨6, ![1, 1, a, b, c, d]⟩ : Shape).ShapeCasts ⟨4, ![a, b, c, d]⟩) (p : Fin a) (q : Fin b) (r : Fin c) (s : Fin d) :
    shapeCast ⟨4, ![a, b, c, d]⟩ x h (ix4 p q r s) = x (ix6 (0 : Fin 1) (0 : Fin 1) p q r s) :=
  shapeCast_apply x h _ _ (by
    rw [Shape.rowMajor_val_six, Shape.rowMajor_val_four]
    show ((((0 * 1 + 0) * a + p.val) * b + q.val) * c + r.val) * d + s.val = ((p.val * b + q.val) * c + r.val) * d + s.val
    simp only [Nat.zero_mul, Nat.zero_add])

/-- An `[a, b, c]` array cast to `[1, 1, a, b, c]` reads, at `(u, v, p, q, r)`, the operand at `(p, q, r)`. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (p : Fin a) (q : Fin b) (r : Fin c) :
    shapeCast ⟨5, ![1, 1, a, b, c]⟩ x h (ix5 u v p q r) = x (ix3 p q r) :=
  shapeCast_apply x h _ _ (by
    have hu : u.val = 0 := by omega
    have hv : v.val = 0 := by omega
    rw [Shape.rowMajor_val_three, Shape.rowMajor_val_five]
    show (p.val * b + q.val) * c + r.val = (((u.val * 1 + v.val) * a + p.val) * b + q.val) * c + r.val
    simp only [hu, hv, Nat.zero_mul, Nat.zero_add])

/-- An `[a, b, d]` array cast to `[a, b, 1, d]` (the unit axis where a reduced axis was) reads, at `(p, q, u, s)`,
    the operand at `(p, q, s)`. -/
theorem shapeCast_abd_ab1d_apply {a b d : ℕ} (x : (⟨3, ![a, b, d]⟩ : Shape).Idx → α)
    (h : (⟨3, ![a, b, d]⟩ : Shape).ShapeCasts ⟨4, ![a, b, 1, d]⟩) (p : Fin a) (q : Fin b) (u : Fin 1) (s : Fin d) :
    shapeCast ⟨4, ![a, b, 1, d]⟩ x h (ix4 p q u s) = x (ix3 p q s) :=
  shapeCast_apply x h _ _ (by
    have hu : u.val = 0 := by omega
    rw [Shape.rowMajor_val_three, Shape.rowMajor_val_four]
    show (p.val * b + q.val) * d + s.val = ((p.val * b + q.val) * 1 + u.val) * d + s.val
    simp only [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    simp only [hu, Nat.mul_one, Nat.add_zero])

/-- An `[a, b, c]` array cast to `[a, b, c, 1]` reads, at `(p, q, r, u)`, the operand at `(p, q, r)`. -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    simp only [hu, Nat.mul_one, Nat.add_zero])

/-! ## Broadcasts along a unit axis -/

/-- A coordinate on an axis of extent `n` is itself, or `0` when the axis is a unit axis: the two cases a broadcast
    distinguishes agree. -/
theorem val_eq_unit_or_self {n : ℕ} (p : Fin n) : p.val = if n = 1 then 0 else p.val := by
  split
  · have := p.isLt; omega
  · rfl

/-- An `[a, b, 1, d]` array broadcast to `[a, b, c, d]` reads, at `(p, q, r, s)`, the operand at `(p, q, 0, s)`. -/
theorem broadcastTo_ab1d_abcd_apply {a b c d : ℕ} (x : (⟨4, ![a, b, 1, d]⟩ : Shape).Idx → α)
    (h : (⟨4, ![a, b, 1, d]⟩ : Shape).Broadcasts ⟨4, ![a, b, c, d]⟩) (p : Fin a) (q : Fin b) (r : Fin c) (s : Fin d) :
    broadcastTo ⟨4, ![a, b, c, d]⟩ x h (ix4 p q r s) = x (ix4 p q (0 : Fin 1) s) := by
  refine broadcastTo_apply x h (ix4 p q r s) (ix4 p q (0 : Fin 1) s) fun ax => ?_
  match ax with
  | ⟨0, _⟩ => exact val_eq_unit_or_self p
  | ⟨1, _⟩ => exact val_eq_unit_or_self q
  | ⟨2, _⟩ => rfl
  | ⟨3, _⟩ => exact val_eq_unit_or_self s

/-- An `[a, b, 1]` array broadcast to `[a, b, c]` reads, at `(p, q, r)`, the operand at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q (0 : Fin 1)) := by
  refine broadcastTo_apply x h (ix3 p q r) (ix3 p q (0 : Fin 1)) fun ax => ?_
  match ax with
  | ⟨0, _⟩ => exact val_eq_unit_or_self p
  | ⟨1, _⟩ => exact val_eq_unit_or_self q
  | ⟨2, _⟩ => rfl

/-- An `[a, b, c, 1]` array broadcast to `[a, b, c, d]` reads, at `(p, q, r, s)`, the operand at `(p, q, r, 0)`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ x h (ix4 p q r s) = x (ix4 p q r (0 : Fin 1)) := by
  refine broadcastTo_apply x h (ix4 p q r s) (ix4 p q r (0 : Fin 1)) fun ax => ?_
  match ax with
  | ⟨0, _⟩ => exact val_eq_unit_or_self p
  | ⟨1, _⟩ => exact val_eq_unit_or_self q
  | ⟨2, _⟩ => exact val_eq_unit_or_self r
  | ⟨3, _⟩ => rfl

/-! ## A kernel's reductions over one axis, at the ideal values -/

/-- The sum over axis 2 of an `[a, b, c, d]` array, at `(p, q, s)`: the sum over `r` of the array at `(p, q, r, s)`. -/
theorem sum_axis2_of4 {a b c d : ℕ} (x : FVec Ideal ⟨4, ![a, b, c, d]⟩ .f32)
    (h : (⟨4, ![a, b, c, d]⟩ : Shape).Reduces [2] ⟨3, ![a, b, d]⟩) (p : Fin a) (q : Fin b) (s : Fin d) :
    multiReduction .add [2] ⟨3, ![a, b, d]⟩ x 0x00000000#32 h (.inl rfl) rfl (ix3 p q s) = ∑ r : Fin c, x (ix4 p q r s) := by
  refine (Ideal.multiReduction_add_single x 0x00000000#32 h (.inl rfl) rfl (ix3 p q s)).trans ?_
  refine Finset.sum_congr rfl fun r _ => congrArg x (funext fun ax => Fin.ext ?_)
  match ax with
  | ⟨0, _⟩ => rfl
  | ⟨1, _⟩ => rfl
  | ⟨2, _⟩ => rfl
  | ⟨3, _⟩ => rfl

/-- The sum over axis 3 of an `[a, b, c, d]` array, at `(p, q, r)`: the sum over `s` of the array at `(p, q, r, s)`. -/
theorem sum_axis3_of4 {a b c d : ℕ} (x : FVec Ideal ⟨4, ![a, b, c, d]⟩ .f32)
    (h : (⟨4, ![a, b, c, d]⟩ : Shape).Reduces [3] ⟨3, ![a, b, c]⟩) (p : Fin a) (q : Fin b) (r : Fin c) :
    multiReduction .add [3] ⟨3, ![a, b, c]⟩ x 0x00000000#32 h (.inl rfl) rfl (ix3 p q r) = ∑ s : Fin d, x (ix4 p q r s) := by
  refine (Ideal.multiReduction_add_single x 0x00000000#32 h (.inl rfl) rfl (ix3 p q r)).trans ?_
  refine Finset.sum_congr rfl fun s _ => congrArg x (funext fun ax => Fin.ext ?_)
  match ax with
  | ⟨0, _⟩ => rfl
  | ⟨1, _⟩ => rfl
  | ⟨2, _⟩ => rfl
  | ⟨3, _⟩ => rfl

/-- The sum over axis 2 of an `[a, b, c]` array, at `(p, q)`: the sum over `r` of the array at `(p, q, r)`. -/
theorem sum_axis2_of3 {a b c : ℕ} (x : FVec Ideal ⟨3, ![a, b, c]⟩ .f32)
    (h : (⟨3, ![a, b, c]⟩ : Shape).Reduces [2] ⟨2, ![a, b]⟩) (p : Fin a) (q : Fin b) :
    multiReduction .add [2] ⟨2, ![a, b]⟩ x 0x00000000#32 h (.inl rfl) rfl (ix2 p q) = ∑ r : Fin c, x (ix3 p q r) := by
  refine (Ideal.multiReduction_add_single x 0x00000000#32 h (.inl rfl) rfl (ix2 p q)).trans ?_
  refine Finset.sum_congr rfl fun r _ => congrArg x (funext fun ax => Fin.ext ?_)
  match ax with
  | ⟨0, _⟩ => rfl
  | ⟨1, _⟩ => rfl
  | ⟨2, _⟩ => rfl

/-- The maximum over axis 2 of an `[a, b, c]` array from `-∞`, at `(p, q)`: the fold of `max` from `-∞` over `r` of the
    array at `(p, q, r)`. -/
theorem max_axis2_of3 {a b c : ℕ} (x : FVec Ideal ⟨3, ![a, b, c]⟩ .f32)
    (h : (⟨3, ![a, b, c]⟩ : Shape).Reduces [2] ⟨2, ![a, b]⟩) (p : Fin a) (q : Fin b) :
    multiReduction .maximumf [2] ⟨2, ![a, b]⟩ x 0xFF800000#32 h (.inl rfl) rfl (ix2 p q)
      = (Finset.univ : Finset (Fin c)).fold max (Ideal.ofBits .f32 0xFF800000#32) (fun r => x (ix3 p q r)) := by
  refine (Ideal.multiReduction_maximumf_single x 0xFF800000#32 h (.inl rfl) rfl (ix2 p q)).trans ?_
  refine congrArg (Finset.fold max (Ideal.ofBits .f32 0xFF800000#32) · Finset.univ) (funext fun r => congrArg x (funext fun ax => Fin.ext ?_))
  match ax with
  | ⟨0, _⟩ => rfl
  | ⟨1, _⟩ => rfl
  | ⟨2, _⟩ => rfl

end Cert.LibAxisRead
-- ==== Proof.KernelRow.lean ====
/-
  The kernel body, read group by group.

  The body loads a block `[1, 1, 16, 32, 30, 64]` of the gathered array — 16 × 32 groups of 30 tokens of width 64 —,
  views it as `[16, 32, 30, 64]`, and computes on the whole block: a sum over the token axis kept as a unit axis and
  broadcast back, a product and a sum over the embedding axis, a maximum over the tokens kept and broadcast back, an
  exponential, a sum, a quotient, a last product and a sum over the tokens. The intermediate arrays are named here
  as functions of the viewed block (`tokSum`, `scores`, `largest`, `weights`, `attns`, `pooledBlk`), the body's
  stored value is their composition by unfolding, and read at `(p, q, …)` each is the corresponding function of
  `Pooling` on the group at `(p, q)`. Changes of float format are the identity on the extended reals.
-/
import proofs.«151780_j1537598292345_2_alg».proof.Proof.Gen.KernelIdeal.Skeleton
import proofs.«151780_j1537598292345_2_alg».proof.Proof.Pooling
import proofs.«151780_j1537598292345_2_alg».proof.Proof.LibAxisRead
import Idealize.ShloMosaic.PureOps.Ideal.Laws

noncomputable section

namespace Cert.KernelIdeal.RowValue

open Cert.KernelIdeal Cert.KernelIdeal.Gen Idealize.ShloMosaic Idealize.ShloMosaic.ValueIdx Cert.Pooling Cert.LibAxisRead

/-! ## The body's intermediate arrays -/

section Stages
variable (x : FVec Ideal S16x32x30x64 .f32)

/-- The sum of each group's tokens. -/
def tokSum : FVec Ideal S16x32x64 .f32 :=
  multiReduction .add [2] S16x32x64 x 0x00000000#32 reduces_S16x32x30x64_S16x32x64 (.inl rfl) rfl

/-- Each token's inner product with its group's sum. -/
def scores : FVec Ideal S16x32x30 .f32 :=
  multiReduction .add [3] S16x32x30
    (mulf x (broadcastTo S16x32x30x64 (shapeCast S16x32x1x64 (tokSum x) shapeCasts_S16x32x64_S16x32x1x64) broadcasts_S16x32x1x64_S16x32x30x64))
    0x00000000#32 reduces_S16x32x30x64_S16x32x30 (.inl rfl) rfl

/-- Each group's largest score, from `-∞` and against `-∞`. -/
def largest : FVec Ideal S16x32 .f32 :=
  maximumf (broadcast S16x32 (Scalar.ofBits .f32 0xFF800000#32))
    (multiReduction .maximumf [2] S16x32 (scores x) 0xFF800000#32 reduces_S16x32x30_S16x32 (.inl rfl) rfl)

/-- The exponential of each score less its group's largest. -/
def weights : FVec Ideal S16x32x30 .f32 :=
  Idealize.ShloMosaic.exp (subf (scores x) (broadcastTo S16x32x30 (shapeCast S16x32x1 (largest x) shapeCasts_S16x32_S16x32x1) broadcasts_S16x32x1_S16x32x30))

/-- Each weight over its group's sum of weights. -/
def attns : FVec Ideal S16x32x30 .f32 :=
  divf (weights x) (broadcastTo S16x32x30 (shapeCast S16x32x1
    (multiReduction .add [2] S16x32 (weights x) 0x00000000#32 reduces_S16x32x30_S16x32 (.inl rfl) rfl) shapeCasts_S16x32_S16x32x1) broadcasts_S16x32x1_S16x32x30)

/-- The attention-weighted sum of each group's tokens. -/
def pooledBlk : FVec Ideal S16x32x64 .f32 :=
  multiReduction .add [2] S16x32x64
    (mulf x (broadcastTo S16x32x30x64 (shapeCast S16x32x30x1 (attns x) shapeCasts_S16x32x30_S16x32x30x1) broadcasts_S16x32x30x1_S16x32x30x64))
    0x00000000#32 reduces_S16x32x30x64_S16x32x64 (.inl rfl) rfl

end Stages

/-- The value the body stores is the pooled block of the loaded block, viewed `[16, 32, 30, 64]` and widened, with its
    two leading unit axes put back. -/
theorem pay_eq (x0 : Vec Ideal S1x1x16x32x30x64 .bf16) :
    k0_pay1 (F := Ideal) x0
      = shapeCast S1x1x16x32x64 (pooledBlk (extf .f32 (shapeCast S16x32x30x64 x0 shapeCasts_S1x1x16x32x30x64_S16x32x30x64) bitsLt_bf16_f32))
          shapeCasts_S16x32x64_S1x1x16x32x64 := rfl

/-! ## Each array at coordinates -/

section At
variable (x : FVec Ideal S16x32x30x64 .f32) (p : Fin 16) (q : Fin 32)

/-- The group of the block at `(p, q)`. -/
abbrev grpAt : Fin 30 → Fin 64 → EReal := fun l e => x (ix4 p q l e)

theorem tokSum_at (e : Fin 64) : tokSum x (ix3 p q e) = summary (grpAt x p q) e :=
  sum_axis2_of4 x _ p q e

theorem scores_at (l : Fin 30) : scores x (ix3 p q l) = score (grpAt x p q) l := by
  refine (sum_axis3_of4 _ _ p q l).trans (Finset.sum_congr rfl fun e _ => ?_)
  refine congrArg (x (ix4 p q l e) * ·) ?_
  refine (broadcastTo_ab1d_abcd_apply _ _ p q l e).trans ?_
  exact (shapeCast_abd_ab1d_apply _ _ p q (0 : Fin 1) e).trans (tokSum_at x p q e)

theorem largest_at : largest x (ix2 p q) = top (grpAt x p q) := by
  refine congrArg (max negInf ·) ?_
  refine (max_axis2_of3 (scores x) _ p q).trans ?_
  exact congrArg (fun f : Fin 30 → EReal => (Finset.univ : Finset (Fin 30)).fold max negInf f) (funext fun l => scores_at x p q l)

theorem weights_at (l : Fin 30) : weights x (ix3 p q l) = weight (grpAt x p q) l := by
  refine congrArg Ideal.exp ?_
  refine (congrArg (· - (broadcastTo S16x32x30 (shapeCast S16x32x1 (largest x) shapeCasts_S16x32_S16x32x1) broadcasts_S16x32x1_S16x32x30) (ix3 p q l)) (scores_at x p q l)).trans ?_
  refine congrArg (score (grpAt x p q) l - ·) ?_
  refine (broadcastTo_ab1_abc_apply _ _ p q l).trans ?_
  exact (shapeCast_ab_ab1_apply _ _ p q (0 : Fin 1)).trans (largest_at x p q)

theorem weightSum_at :
    multiReduction .add [2] S16x32 (weights x) 0x00000000#32 reduces_S16x32x30_S16x32 (.inl rfl) rfl (ix2 p q)
      = ∑ l : Fin 30, weight (grpAt x p q) l :=
  (sum_axis2_of3 (weights x) _ p q).trans (Finset.sum_congr rfl fun l _ => weights_at x p q l)

theorem attns_at (l : Fin 30) : attns x (ix3 p q l) = attn (grpAt x p q) l := by
  refine (congrArg (Ideal.div · ((broadcastTo S16x32x30 (shapeCast S16x32x1
    (multiReduction .add [2] S16x32 (weights x) 0x00000000#32 reduces_S16x32x30_S16x32 (.inl rfl) rfl) shapeCasts_S16x32_S16x32x1) broadcasts_S16x32x1_S16x32x30) (ix3 p q l)))
    (weights_at x p q l)).trans ?_
  refine congrArg (Ideal.div (weight (grpAt x p q) l) ·) ?_
  refine (broadcastTo_ab1_abc_apply _ _ p q l).trans ?_
  exact (shapeCast_ab_ab1_apply _ _ p q (0 : Fin 1)).trans (weightSum_at x p q)

theorem pooledBlk_at (e : Fin 64) : pooledBlk x (ix3 p q e) = pooled (grpAt x p q) e := by
  refine (sum_axis2_of4 _ _ p q e).trans (Finset.sum_congr rfl fun l _ => ?_)
  refine congrArg (x (ix4 p q l e) * ·) ?_
  refine (broadcastTo_abc1_abcd_apply _ _ p q l e).trans ?_
  exact (shapeCast_abc_abc1_apply _ _ p q l (0 : Fin 1)).trans (attns_at x p q l)

end At

/-- THE BODY'S STORED VALUE at `(0, 0, p, q, e)`: the pooled vector, at `e`, of the loaded block's group at `(p, q)`. -/
theorem pay_at (x0 : Vec Ideal S1x1x16x32x30x64 .bf16) (p : Fin 16) (q : Fin 32) (e : Fin 64) :
    k0_pay1 (F := Ideal) x0 (ix5 (0 : Fin 1) (0 : Fin 1) p q e)
      = pooled (fun l e' => x0 (ix6 (0 : Fin 1) (0 : Fin 1) p q l e')) e := by
  rw [pay_eq]
  refine (shapeCast_abc_11abc_apply _ _ (0 : Fin 1) (0 : Fin 1) p q e).trans ?_
  refine (pooledBlk_at _ p q e).trans ?_
  exact congrArg (fun g : Fin 30 → Fin 64 → EReal => pooled g e)
    (funext fun l => funext fun e' => shapeCast_11abcd_abcd_apply x0 _ p q l e')

end Cert.KernelIdeal.RowValue

end
-- ==== Proof.KernelArray.lean ====
/-
  From the kernel's blocks to its result array, and the host operations around the region.

  The grid has 8 × 6 × 2 points `(b, t, hb)`. At a point the kernel reads block `(b, t, hb, 0, 0, 0)` of the gathered
  array — sizes `[1, 1, 16, 32, 30, 64]`: the groups at rows `16·hb … 16·hb + 15` of image `(b, t)` — and writes block
  `(b, t, hb, 0, 0)` of the result, sizes `[1, 1, 16, 32, 64]`. An element `(0, 0, p, q, …)` of either block sits in its
  array at `(b, t, 16·hb + p, q, …)`, so what a point writes back is the block, at that point, of ONE function of the
  gathered array: the pooling of every group (`Pooling.poolAll`). The blocks tile the result, so after the run the
  result array is that function. Before the region the host gathers the token embeddings; after it, it transposes
  and reshapes the pooled array.
-/
import proofs.«151780_j1537598292345_2_alg».proof.Proof.Gen.KernelIdeal.Frame
import proofs.«151780_j1537598292345_2_alg».proof.Proof.KernelRow
import Idealize.ShloMosaic.Lib.Pipeline.Value
import Idealize.ShloMosaic.Lib.StableHlo.Run

noncomputable section

namespace Cert.KernelIdeal.ArrValue

open Cert.KernelIdeal Cert.KernelIdeal.Gen Cert.KernelIdeal.RowValue Idealize.ShloMosaic Idealize.ShloMosaic.TcCoe Idealize.SL.Sem
open Idealize.ShloMosaic.ValueIdx Cert.Pooling
open Idealize.ShloMosaic.Pipeline (Dat)

variable (m : (ℓ : Loc nD τ sig) → Buf (Elt Ideal) ℓ) (ρ : Dev nD → PrngReg)

theorem hz5 : (![0, 0, 0, 0, 0] : Fin 5 → Nat) = fun _ => 0 := funext fun a => by fin_cases a <;> rfl
theorem hz6 : (![0, 0, 0, 0, 0, 0] : Fin 6 → Nat) = fun _ => 0 := funext fun a => by fin_cases a <;> rfl

/-- The gathered token embeddings as the region finds them. -/
abbrev gathered (c : Dev nD) : S8x6x32x32x30x64.Idx → EReal := V m c main_v7

/-- What the result array ends holding: every group of the gathered array pooled. -/
abbrev target (c : Dev nD) : Buf (Elt Ideal) ((c : Thread nD τ).loc main_v8) := poolAll (gathered m c)

/-- The two windows move together over the grid: the block indices agree on the three gridded axes and are zero on
    the others; and they stay in range. Decided over the 96 points. -/
theorem idx_facts : ∀ t : Fin cfg0.N,
    win0_0.index t (0 : Fin 6) = win0_1.index t (0 : Fin 5) ∧ win0_0.index t (1 : Fin 6) = win0_1.index t (1 : Fin 5)
    ∧ win0_0.index t (2 : Fin 6) = win0_1.index t (2 : Fin 5)
    ∧ win0_0.index t (3 : Fin 6) = 0 ∧ win0_0.index t (4 : Fin 6) = 0 ∧ win0_0.index t (5 : Fin 6) = 0
    ∧ win0_1.index t (3 : Fin 5) = 0 ∧ win0_1.index t (4 : Fin 5) = 0
    ∧ win0_1.index t (0 : Fin 5) ≤ 7 ∧ win0_1.index t (1 : Fin 5) ≤ 5 ∧ win0_1.index t (2 : Fin 5) ≤ 1 :=
  (by decide +kernel : ∀ t : Fin grid0.N, _)

/-- Every block of the result is some point's. -/
theorem idx_onto : ∀ (q0 : Fin 8) (q1 : Fin 6) (q2 : Fin 2), ∃ t : Fin cfg0.N, win0_1.index t = ![q0.val, q1.val, q2.val, 0, 0] :=
  (by decide +kernel : ∀ (q0 : Fin 8) (q1 : Fin 6) (q2 : Fin 2), ∃ t : Fin grid0.N, win0_1.index t = ![q0.val, q1.val, q2.val, 0, 0])

/-- The input block at point `t`, at `(0, 0, p, q, l, e)`, is the gathered array at `(b, t, 16·hb + p, q, l, e)`. -/
theorem iblk_at (c : Dev nD) (t : Fin cfg0.N) (p : Fin 16) (q : Fin 32) (l : Fin 30) (e : Fin 64) (k : S8x6x32x32x30x64.Idx)
    (hk0 : (k 0).val = win0_1.index t (0 : Fin 5)) (hk1 : (k 1).val = win0_1.index t (1 : Fin 5))
    (hk2 : (k 2).val = win0_1.index t (2 : Fin 5) * 16 + p.val) (hk3 : (k 3).val = q.val) (hk4 : (k 4).val = l.val)
    (hk5 : (k 5).val = e.val) :
    (iblk m c 0 t : Vec Ideal S1x1x16x32x30x64 .bf16) (ix6 (0 : Fin 1) (0 : Fin 1) p q l e) = gathered m c k := by
  obtain ⟨e0, e1, e2, e3, e4, e5, -⟩ := idx_facts t
  unfold iblk
  rw [View.read_apply]
  show V m c main_v7 _ = V m c main_v7 k
  refine congrArg (V m c main_v7) (funext fun a => Fin.ext ?_)
  match a with
  | ⟨0, _⟩ => show win0_0.index t (0 : Fin 6) * 1 + 1 * 0 = (k 0).val; rw [e0, hk0]; omega
  | ⟨1, _⟩ => show win0_0.index t (1 : Fin 6) * 1 + 1 * 0 = (k 1).val; rw [e1, hk1]; omega
  | ⟨2, _⟩ => show win0_0.index t (2 : Fin 6) * 16 + 1 * p.val = (k 2).val; rw [e2, hk2]; omega
  | ⟨3, _⟩ => show win0_0.index t (3 : Fin 6) * 32 + 1 * q.val = (k 3).val; rw [e3, hk3]; omega
  | ⟨4, _⟩ => show win0_0.index t (4 : Fin 6) * 30 + 1 * l.val = (k 4).val; rw [e4, hk4]; omega
  | ⟨5, _⟩ => show win0_0.index t (5 : Fin 6) * 64 + 1 * e.val = (k 5).val; rw [e5, hk5]; omega

/-- WHAT POINT `t` WRITES BACK is block `t` of the pooled array. -/
theorem flushed_eq (c : Dev nD) (t : Fin cfg0.N) :
    (dats m 0 c).flushed 1 t = ((cfg0.win 1).blk t).view.read (Elt Ideal) (target m c) := by
  show (cfg0.win 1).cut (grid0.coords t) ((dats m 0 c).after 1 t) = _
  rw [after0_1]
  unfold out0_1
  rw [View.canon_unit_zero hz5]
  simp only [View.ld_unit_zero (S := S1x1x16x32x30x64) hz6]
  obtain ⟨e0, e1, e2, e3, e4, e5, f3, f4, b0, b1, b2⟩ := idx_facts t
  funext j
  obtain ⟨u, v, p, q, e, rfl⟩ : ∃ (u v : Fin 1) (p : Fin 16) (q : Fin 32) (e : Fin 64), j = ix5 u v p q e :=
    ⟨j 0, j 1, j 2, j 3, j 4, eq_ix5 j⟩
  obtain rfl : u = 0 := Subsingleton.elim _ _
  obtain rfl : v = 0 := Subsingleton.elim _ _
  show k0_pay1 (F := Ideal) (iblk m c 0 t) (ix5 (0 : Fin 1) (0 : Fin 1) p q e)
    = target m c (((cfg0.win 1).blk t).view.emb (ix5 (0 : Fin 1) (0 : Fin 1) p q e))
  refine (pay_at (iblk m c 0 t) p q e).trans ?_
  have hk : ((cfg0.win 1).blk t).view.emb (ix5 (0 : Fin 1) (0 : Fin 1) p q e)
      = ix5 (⟨win0_1.index t (0 : Fin 5), by omega⟩ : Fin 8) (⟨win0_1.index t (1 : Fin 5), by omega⟩ : Fin 6)
          (⟨win0_1.index t (2 : Fin 5) * 16 + p.val, by have := p.isLt; omega⟩ : Fin 32) q e := by
    funext a; apply Fin.ext
    match a with
    | ⟨0, _⟩ => show win0_1.index t (0 : Fin 5) * 1 + 1 * 0 = win0_1.index t (0 : Fin 5); omega
    | ⟨1, _⟩ => show win0_1.index t (1 : Fin 5) * 1 + 1 * 0 = win0_1.index t (1 : Fin 5); omega
    | ⟨2, _⟩ => show win0_1.index t (2 : Fin 5) * 16 + 1 * p.val = win0_1.index t (2 : Fin 5) * 16 + p.val; omega
    | ⟨3, _⟩ => show win0_1.index t (3 : Fin 5) * 32 + 1 * q.val = q.val; rw [f3]; omega
    | ⟨4, _⟩ => show win0_1.index t (4 : Fin 5) * 64 + 1 * e.val = e.val; rw [f4]; omega
  rw [hk]
  show _ = pooled (fun l e' => gathered m c (ix6 _ _ _ q l e')) e
  exact congrArg (fun g : Fin 30 → Fin 64 → EReal => pooled g e)
    (funext fun l => funext fun e' => iblk_at m c t p q l e' _ rfl rfl rfl rfl rfl rfl)

/-- An index of the result is in point `t`'s block iff each coordinate is in the block's range on its axis. -/
theorem mem_blk (t : Fin cfg0.N) (i : S8x6x32x32x64.Idx) :
    i ∈ ((cfg0.win 1).blk t).view.set ↔ ∀ a : Fin 5, win0_1.index t a * S1x1x16x32x64.size a ≤ (i a).val
      ∧ (i a).val < win0_1.index t a * S1x1x16x32x64.size a + S1x1x16x32x64.size a := by
  show i ∈ ((View.whole main_v8).slice (win0_1.rect t)).set ↔ _
  rw [View.set_slice_whole, Rect.mem_set_unit]
  exact Iff.rfl

/-- Every index of the result is in some point's block: the point `(b, t, h / 16)`. -/
theorem cover (i : S8x6x32x32x64.Idx) : ∃ t : Fin cfg0.N, (cfg0.win 1).flush t = true ∧ i ∈ ((cfg0.win 1).blk t).view.set := by
  have h0 : (i 0).val < 8 := (i 0).isLt
  have h1 : (i 1).val < 6 := (i 1).isLt
  have h2 : (i 2).val < 32 := (i 2).isLt
  have h3 : (i 3).val < 32 := (i 3).isLt
  have h4 : (i 4).val < 64 := (i 4).isLt
  obtain ⟨t, ht⟩ := idx_onto ⟨(i 0).val, h0⟩ ⟨(i 1).val, h1⟩ ⟨(i 2).val / 16, by omega⟩
  have q0 : win0_1.index t (0 : Fin 5) = (i 0).val := congrFun ht 0
  have q1 : win0_1.index t (1 : Fin 5) = (i 1).val := congrFun ht 1
  have q2 : win0_1.index t (2 : Fin 5) = (i 2).val / 16 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 16 ≤ (i 2).val ∧ (i 2).val < win0_1.index t (2 : Fin 5) * 16 + 16; omega
  | ⟨3, _⟩ => show win0_1.index t (3 : Fin 5) * 32 ≤ (i 3).val ∧ (i 3).val < win0_1.index t (3 : Fin 5) * 32 + 32; omega
  | ⟨4, _⟩ => show win0_1.index t (4 : Fin 5) * 64 ≤ (i 4).val ∧ (i 4).val < win0_1.index t (4 : Fin 5) * 64 + 64; omega

/-- THE RESULT ARRAY of the region after the run: the pooled array. -/
theorem final (c : Dev nD) : (dats m 0 c).arrAt 1 cfg0.N = target m c :=
  (dats m 0 c).arrAt_eq_of_cover 1 (target m c) (fun t _ => flushed_eq m c t) cover

end Cert.KernelIdeal.ArrValue

end
-- ==== Proof.KernelRun.lean ====
/-
  The kernel program's run, read.

  Before the region the host narrows the embedding table (the identity on the extended reals), turns a negative
  token id `x` into `x + 50000`, and gathers one table row per token; after the region it transposes the pooled
  array to put the embedding axis third and merges it with the time axis. The generated frame run ends with every
  array of the pipeline at what the proof data computes and every other buffer as the host lines after the region
  leave it; read here: the program's result is the transposed and merged pooling of the gathered array, a function
  of the two argument arrays, which end unchanged.
-/
import proofs.«151780_j1537598292345_2_alg».proof.Proof.KernelArray

noncomputable section

namespace Cert.KernelIdeal.ArrValue

open Cert.KernelIdeal Cert.KernelIdeal.Gen Idealize.ShloMosaic Idealize.ShloMosaic.TcCoe Idealize.SL.Sem
open Idealize.ShloMosaic.ValueIdx Cert.Pooling
open Idealize.ShloMosaic.Pipeline (Dat)

/-- The token embeddings the host gathers, as a function of the token ids and the table. -/
def gatherK (x0 : (⟨S8x6x32x32x30, .i32⟩ : BufTy).Contents (Elt Ideal)) (x1 : (⟨S50000x64, .f32⟩ : BufTy).Contents (Elt Ideal)) :
    (⟨S8x6x32x32x30x64, .bf16⟩ : BufTy).Contents (Elt Ideal) :=
  Host.gather gather_S50000x64_S8x6x32x32x30x1_S8x6x32x32x30x64_5_0_n_n_0_5_164
    (truncf (F := Ideal) FTy.bf16 (x1 : FVec Ideal S50000x64 .f32) bitsLt_bf16_f32 : FVec Ideal S50000x64 .bf16)
    (broadcastInDim S8x6x32x32x30x1 ![0, 1, 2, 3, 4] bcast_S8x6x32x32x30_S8x6x32x32x30x1_0_1_2_3_4
      (select
        (cmpi CmpIPredicate.slt x0 (broadcastInDim S8x6x32x32x30 ![] bcast_S_S8x6x32x32x30 (constantI S_ 32 0#32)))
        (addi x0 (broadcastInDim S8x6x32x32x30 ![] bcast_S_S8x6x32x32x30 (constantI S_ 32 50000#32)))
        x0))

/-- The program's result, as a function of the token ids and the table: gather, pool every group, transpose, merge. -/
def resultK (x0 : (⟨S8x6x32x32x30, .i32⟩ : BufTy).Contents (Elt Ideal)) (x1 : (⟨S50000x64, .f32⟩ : BufTy).Contents (Elt Ideal)) :
    (⟨S8x384x32x32, .f32⟩ : BufTy).Contents (Elt Ideal) :=
  shapeCast S8x384x32x32
    (transpose S8x6x64x32x32 [0, 1, 4, 2, 3] (poolAll (gatherK x0 x1)) transposes_S8x6x32x32x64_S8x6x64x32x32_0_1_4_2_3)
    shapeCasts_S8x6x64x32x32_S8x384x32x32

variable (m : (ℓ : Loc nD τ sig) → Buf (Elt Ideal) ℓ) (ρ : Dev nD → PrngReg)

/-- The gathered array as the region finds it is the host's gather of the argument arrays. -/
theorem gathered_eq (c : Dev nD) :
    gathered m c = gatherK (m ((c.tc : Thread nD τ).loc main_arg0)) (m ((c.tc : Thread nD τ).loc main_arg1)) := by
  show StableHlo.after hostOps0 (fun b => m (c, b)) (Proc.devRef .tc main_v7) = _
  after_results
  rfl

/-- The region's result array, as the host lines after the region find it. -/
theorem pooled_arr (c : Dev nD) :
    Pipeline.withArrays spec0 c (V0 m c) (fun w => (dats m 0 c).arrAt w cfg0.N) (Proc.devRef .tc main_v8)
      = poolAll (gatherK (m ((c.tc : Thread nD τ).loc main_arg0)) (m ((c.tc : Thread nD τ).loc main_arg1))) :=
  (Pipeline.withArrays_arr spec0 launch0.win.arr_inj c _ _ 1).trans
    ((final m c).trans (congrArg poolAll (gathered_eq m c)))

/-- The program's result after the host lines that follow the region. -/
theorem result_eq (c : Dev nD) :
    Pipeline.afterTail₀ cfgs (dats m) 0 (V0 m) [hostOps1] c main_v10
      = resultK (m ((c.tc : Thread nD τ).loc main_arg0)) (m ((c.tc : Thread nD τ).loc main_arg1)) := by
  unfold Pipeline.afterTail₀
  show StableHlo.after hostOps1 _ (Proc.devRef .tc main_v10) = _
  after_results
  show shapeCast S8x384x32x32
      (transpose S8x6x64x32x32 [0, 1, 4, 2, 3]
        (Pipeline.withArrays spec0 c (V0 m c) (fun w => (dats m 0 c).arrAt w cfg0.N) (Proc.devRef .tc main_v8))
        transposes_S8x6x32x32x64_S8x6x64x32x32_0_1_4_2_3)
      shapeCasts_S8x6x64x32x32_S8x384x32x32 = _
  rw [pooled_arr]
  rfl

/-- THE RUN: every weakly fair execution terminates with the result at `resultK` of the argument arrays and the
    argument arrays unchanged. -/
theorem run : θ_run defs (onTc (τ := τ) (main (F := Ideal))) ⟨m, fun _ => 0, ρ⟩ fun r => ∀ c : Dev nD,
      r.2.mem ((c.tc : Thread nD τ).loc main_v10)
        = resultK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ArrValue

end
-- ==== Proof.RefRow.lean ====
/-
  The reference program, read group by group.

  The reference gathers the token embeddings into one array `[8, 6, 32, 32, 30, 64]` and then applies whole-array
  operations: a sum over the token axis, two broadcasts back, a product, a sum over the embedding axis, a maximum
  over the token axis, and so on. Read at an index `(b, t, h, w, …)`, each of these operations only looks at the
  group of tokens at `(b, t, h, w)`, and computes on it the corresponding function of `Pooling`: the summary, the
  scores, the largest score, the weights, the attentions, the pooled vector. One lemma per operation says so; the
  sums start from the zero word, which is the extended real `0`, and the maxima from `-∞`.
-/
import proofs.«151780_j1537598292345_2_alg».proof.Proof.Gen.ReferenceIdeal.Read
import proofs.«151780_j1537598292345_2_alg».proof.Proof.Pooling
import Idealize.ShloMosaic.Lib.ValueIdxRank6
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Pooling

variable (x0 : (⟨S8x6x32x32x30, .i32⟩ : BufTy).Contents (Elt Ideal)) (x1 : (⟨S50000x64, .f32⟩ : BufTy).Contents (Elt Ideal))
variable (b : Fin 8) (t : Fin 6) (h w : Fin 32)

/-- The group of gathered tokens at `(b, t, h, w)`. -/
def grp : Fin 30 → Fin 64 → EReal := fun l e => val_main_v6 (F := Ideal) x0 x1 (ix6 b t h w l e)

/-! ## The operations' index maps at coordinates -/

theorem idx7 (e : Fin 64) (k : Fin 30) : idx_main_v7 (ix5 b t h w e) k = ix6 b t h w k e := by
  funext a; match a with | ⟨0, _⟩ => rfl | ⟨1, _⟩ => rfl | ⟨2, _⟩ => rfl | ⟨3, _⟩ => rfl | ⟨4, _⟩ => rfl | ⟨5, _⟩ => rfl
theorem idx89 (l : Fin 30) (e : Fin 64) : idx_main_v8 (idx_main_v9 (ix6 b t h w l e)) = ix5 b t h w e := by
  funext a; match a with | ⟨0, _⟩ => rfl | ⟨1, _⟩ => rfl | ⟨2, _⟩ => rfl | ⟨3, _⟩ => rfl | ⟨4, _⟩ => rfl
theorem idx11 (l : Fin 30) (k : Fin 64) : idx_main_v11 (ix5 b t h w l) k = ix6 b t h w l k := by
  funext a; match a with | ⟨0, _⟩ => rfl | ⟨1, _⟩ => rfl | ⟨2, _⟩ => rfl | ⟨3, _⟩ => rfl | ⟨4, _⟩ => rfl | ⟨5, _⟩ => rfl
theorem idx1516 (l : Fin 30) : idx_main_v15 (idx_main_v16 (ix5 b t h w l)) = ix4 b t h w := by
  funext a; match a with | ⟨0, _⟩ => rfl | ⟨1, _⟩ => rfl | ⟨2, _⟩ => rfl | ⟨3, _⟩ => rfl
theorem idx19 (k : Fin 30) : idx_main_v19 (ix4 b t h w) k = ix5 b t h w k := by
  funext a; match a with | ⟨0, _⟩ => rfl | ⟨1, _⟩ => rfl | ⟨2, _⟩ => rfl | ⟨3, _⟩ => rfl | ⟨4, _⟩ => rfl
theorem idx2021 (l : Fin 30) : idx_main_v20 (idx_main_v21 (ix5 b t h w l)) = ix4 b t h w := by
  funext a; match a with | ⟨0, _⟩ => rfl | ⟨1, _⟩ => rfl | ⟨2, _⟩ => rfl | ⟨3, _⟩ => rfl
theorem idx2324 (l : Fin 30) (e : Fin 64) : idx_main_v23 (idx_main_v24 (ix6 b t h w l e)) = ix5 b t h w l := by
  funext a; match a with | ⟨0, _⟩ => rfl | ⟨1, _⟩ => rfl | ⟨2, _⟩ => rfl | ⟨3, _⟩ => rfl | ⟨4, _⟩ => rfl
theorem idx26 (e : Fin 64) (k : Fin 30) : idx_main_v26 (ix5 b t h w e) k = ix6 b t h w k e := by
  funext a; match a with | ⟨0, _⟩ => rfl | ⟨1, _⟩ => rfl | ⟨2, _⟩ => rfl | ⟨3, _⟩ => rfl | ⟨4, _⟩ => rfl | ⟨5, _⟩ => rfl

/-- The token axis of the score array as a reduced axis. -/
theorem red_tokens : S8x6x32x32x30.Reduces [4] S8x6x32x32 := by decide

theorem lift_tokens (k : Fin 30) : red_tokens.lift (ix4 b t h w) k = ix5 b t h w k := by
  funext a; apply Fin.ext; match a with | ⟨0, _⟩ => rfl | ⟨1, _⟩ => rfl | ⟨2, _⟩ => rfl | ⟨3, _⟩ => rfl | ⟨4, _⟩ => rfl

/-- A sum that starts from the zero word is the sum. -/
theorem zero_word_add (s : EReal) : Ideal.ofBits .f32 0x00000000#32 + s = s := by
  rw [Ideal.ofBits_zero_f32, zero_add]

/-! ## The operations, group by group -/

/-- The first sum over the tokens is the group's summary vector. -/
theorem v7_at (e : Fin 64) : val_main_v7 (F := Ideal) x0 x1 (ix5 b t h w e) = summary (grp x0 x1 b t h w) e :=
  (val_main_v7_apply x0 x1 (ix5 b t h w e)).trans <|
    (congrArg (Ideal.ofBits .f32 0x00000000#32 + ·)
      (Finset.sum_congr rfl fun k _ => congrArg (val_main_v6 (F := Ideal) x0 x1) (idx7 b t h w e k))).trans (zero_word_add _)

/-- Broadcast back over the tokens, it is the summary vector at every token. -/
theorem v9_at (l : Fin 30) (e : Fin 64) : val_main_v9 (F := Ideal) x0 x1 (ix6 b t h w l e) = summary (grp x0 x1 b t h w) e :=
  (val_main_v9_apply x0 x1 _).trans ((val_main_v8_apply x0 x1 _).trans
    ((congrArg (val_main_v7 (F := Ideal) x0 x1) (idx89 b t h w l e)).trans (v7_at x0 x1 b t h w e)))

/-- The sum over the embedding axis of token times summary is the token's score. -/
theorem v11_at (l : Fin 30) : val_main_v11 (F := Ideal) x0 x1 (ix5 b t h w l) = score (grp x0 x1 b t h w) l :=
  (val_main_v11_apply x0 x1 (ix5 b t h w l)).trans <|
    (congrArg (Ideal.ofBits .f32 0x00000000#32 + ·)
      (Finset.sum_congr rfl fun k _ => (congrArg (val_main_v10 (F := Ideal) x0 x1) (idx11 b t h w l k)).trans
        ((val_main_v10_apply x0 x1 _).trans (congrArg (val_main_v6 (F := Ideal) x0 x1 (ix6 b t h w l k) * ·) (v9_at x0 x1 b t h w l k))))).trans
      (zero_word_add _)

/-- The maximum over the tokens from `-∞`. -/
theorem v12_at : val_main_v12 (F := Ideal) x0 x1 (ix4 b t h w)
    = (Finset.univ : Finset (Fin 30)).fold max negInf (score (grp x0 x1 b t h w)) := by
  have e1 := Host.reduce_eq_fold_single (FloatOps.maximumf (F := Ideal) (φ := .f32)) (val_main_v11 (F := Ideal) x0 x1)
    (val_main_cst_2 (F := Ideal)) reducesTo_S8x6x32x32x30_S8x6x32x32_d4 red_tokens h_S_ (ix4 b t h w)
  have e2 : (val_main_v11 (F := Ideal) x0 x1 ∘ red_tokens.lift (ix4 b t h w)) = score (grp x0 x1 b t h w) :=
    funext fun k => (congrArg (val_main_v11 (F := Ideal) x0 x1) (lift_tokens b t h w k)).trans (v11_at x0 x1 b t h w k)
  rw [e2] at e1
  exact e1

/-- Taken against `-∞` once more: the largest score as the softmax takes it. -/
theorem v14_at : val_main_v14 (F := Ideal) x0 x1 (ix4 b t h w) = top (grp x0 x1 b t h w) :=
  (val_main_v14_apply x0 x1 _).trans
    (congrArg (max negInf ·) (v12_at x0 x1 b t h w))

theorem v16_at (l : Fin 30) : val_main_v16 (F := Ideal) x0 x1 (ix5 b t h w l) = top (grp x0 x1 b t h w) :=
  (val_main_v16_apply x0 x1 _).trans ((val_main_v15_apply x0 x1 _).trans
    ((congrArg (val_main_v14 (F := Ideal) x0 x1) (idx1516 b t h w l)).trans (v14_at x0 x1 b t h w)))

/-- The exponential of score less largest is the token's weight. -/
theorem v18_at (l : Fin 30) : val_main_v18 (F := Ideal) x0 x1 (ix5 b t h w l) = weight (grp x0 x1 b t h w) l :=
  (val_main_v18_apply x0 x1 _).trans (congrArg Ideal.exp ((val_main_v17_apply x0 x1 _).trans
    ((congrArg (· - val_main_v16 (F := Ideal) x0 x1 (ix5 b t h w l)) (v11_at x0 x1 b t h w l)).trans
      (congrArg (score (grp x0 x1 b t h w) l - ·) (v16_at x0 x1 b t h w l)))))

/-- The sum of the weights over the tokens. -/
theorem v19_at : val_main_v19 (F := Ideal) x0 x1 (ix4 b t h w) = ∑ l : Fin 30, weight (grp x0 x1 b t h w) l :=
  (val_main_v19_apply x0 x1 (ix4 b t h w)).trans <|
    (congrArg (Ideal.ofBits .f32 0x00000000#32 + ·)
      (Finset.sum_congr rfl fun k _ => (congrArg (val_main_v18 (F := Ideal) x0 x1) (idx19 b t h w k)).trans (v18_at x0 x1 b t h w k))).trans
      (zero_word_add _)

/-- Weight over the sum of the weights is the token's attention. -/
theorem v22_at (l : Fin 30) : val_main_v22 (F := Ideal) x0 x1 (ix5 b t h w l) = attn (grp x0 x1 b t h w) l :=
  (val_main_v22_apply x0 x1 _).trans
    ((congrArg (Ideal.div · (val_main_v21 (F := Ideal) x0 x1 (ix5 b t h w l))) (v18_at x0 x1 b t h w l)).trans
      (congrArg (Ideal.div (weight (grp x0 x1 b t h w) l) ·)
        ((val_main_v21_apply x0 x1 _).trans ((val_main_v20_apply x0 x1 _).trans
          ((congrArg (val_main_v19 (F := Ideal) x0 x1) (idx2021 b t h w l)).trans (v19_at x0 x1 b t h w))))))

theorem v24_at (l : Fin 30) (e : Fin 64) : val_main_v24 (F := Ideal) x0 x1 (ix6 b t h w l e) = attn (grp x0 x1 b t h w) l :=
  (val_main_v24_apply x0 x1 _).trans ((val_main_v23_apply x0 x1 _).trans
    ((congrArg (val_main_v22 (F := Ideal) x0 x1) (idx2324 b t h w l e)).trans (v22_at x0 x1 b t h w l)))

/-- The last sum over the tokens, of token times attention, is the pooled vector. -/
theorem v26_at (e : Fin 64) : val_main_v26 (F := Ideal) x0 x1 (ix5 b t h w e) = pooled (grp x0 x1 b t h w) e :=
  (val_main_v26_apply x0 x1 (ix5 b t h w e)).trans <|
    (congrArg (Ideal.ofBits .f32 0x00000000#32 + ·)
      (Finset.sum_congr rfl fun k _ => (congrArg (val_main_v25 (F := Ideal) x0 x1) (idx26 b t h w e k)).trans
        ((val_main_v25_apply x0 x1 _).trans (congrArg (val_main_v6 (F := Ideal) x0 x1 (ix6 b t h w k e) * ·) (v24_at x0 x1 b t h w k e))))).trans
      (zero_word_add _)

/-- The pooled array the reference computes is `poolAll` of the gathered array. -/
theorem pooled_eq : (val_main_v26 (F := Ideal) x0 x1 : S8x6x32x32x64.Idx → EReal) = poolAll (val_main_v6 (F := Ideal) x0 x1) := by
  funext i
  obtain ⟨b, t, h, w, e, rfl⟩ : ∃ (b : Fin 8) (t : Fin 6) (h w : Fin 32) (e : Fin 64), i = ix5 b t h w e :=
    ⟨i 0, i 1, i 2, i 3, i 4, eq_ix5 i⟩
  exact v26_at x0 x1 b t h w e

end Cert.ReferenceIdeal.RefValue

end
-- ==== Proof.Claims.lean ====
/-
  The claims.

  Both idealized programs compute, from the same token ids and embedding table, the same function: gather a row of
  the table per token (a negative id counted from the end), pool each group of 30 tokens by self-attention against
  the group's sum, put the embedding axis third and merge it with the time axis. The kernel program does the pooling
  in a Pallas region, 16 × 32 groups per grid point (`KernelRun`); the reference does it with whole-array host
  operations (`RefRow`). The gathers agree because narrowing the table to bf16 is the identity on the extended
  reals; the poolings agree group by group, both being `Pooling.pooled`; the last two layout operations are the same
  text. The three frames are the generated ones, and the idealization rewrote nothing.
-/
import proofs.«151780_j1537598292345_2_alg».proof.Defs
import proofs.«151780_j1537598292345_2_alg».proof.Proof.Gen.Kernel.Frame
import proofs.«151780_j1537598292345_2_alg».proof.Proof.Gen.KernelIdeal.Frame
import proofs.«151780_j1537598292345_2_alg».proof.Proof.Gen.Pre_finite_inputs
import proofs.«151780_j1537598292345_2_alg».proof.Proof.Gen.ReferenceIdeal.Run
import proofs.«151780_j1537598292345_2_alg».proof.Proof.Gen.ReferenceIdeal.Read
import proofs.«151780_j1537598292345_2_alg».proof.Proof.KernelRun
import proofs.«151780_j1537598292345_2_alg».proof.Proof.RefRow

noncomputable section

open Idealize.ShloMosaic Idealize.ShloMosaic.TcCoe Idealize.SL.Sem

namespace Cert.Proof.PoolClaims

open Cert.Pooling

/-- The two programs gather the same array: the kernel program's table is the reference's narrowed to bf16, which
    changes no extended real, and the index arithmetic is the same text. -/
theorem gather_agree (x0 : (⟨Cert.ReferenceIdeal.S8x6x32x32x30, .i32⟩ : BufTy).Contents (Elt Ideal))
    (x1 : (⟨Cert.ReferenceIdeal.S50000x64, .f32⟩ : BufTy).Contents (Elt Ideal)) :
    (Cert.ReferenceIdeal.Read.val_main_v6 (F := Ideal) x0 x1 : Cert.ReferenceIdeal.S8x6x32x32x30x64.Idx → EReal)
      = Cert.KernelIdeal.ArrValue.gatherK x0 x1 := rfl

/-- The reference's result is the kernel program's function of the arguments. -/
theorem ref_result_eq (x0 : (⟨Cert.ReferenceIdeal.S8x6x32x32x30, .i32⟩ : BufTy).Contents (Elt Ideal))
    (x1 : (⟨Cert.ReferenceIdeal.S50000x64, .f32⟩ : BufTy).Contents (Elt Ideal)) :
    Cert.ReferenceIdeal.Read.val_main_v28 (F := Ideal) x0 x1 = Cert.KernelIdeal.ArrValue.resultK x0 x1 := by
  unfold Cert.ReferenceIdeal.Read.val_main_v28 Cert.ReferenceIdeal.Read.val_main_v27 Cert.KernelIdeal.ArrValue.resultK
  rw [Cert.ReferenceIdeal.RefValue.pooled_eq, gather_agree]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values both programs end with the result at `resultK` of the arguments they agree on. -/
theorem algebraic : Cert.algebraic_KernelIdeal_ReferenceIdeal := by
  intro m ρ m' ρ' _ hagree
  refine ⟨fun c => Cert.KernelIdeal.ArrValue.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2]
  exact ref_result_eq _ _

end Cert.Proof.PoolClaims

end
-- ==== Proof.lean ====
/- The proof of `Cert.Claim`: a Pallas kernel for self-attention pooling of gathered token embeddings against its jnp
   reference, equal as extended reals.

   Token ids `x : [8, 6, 32, 32, 30]` index a table `[50000, 64]`; each group of 30 gathered rows is pooled: the
   summary `V = Σ_l g_l`, the scores `b_l = ⟨g_l, V⟩`, the softmax `c` of the scores over the group, and the pooled
   vector `Σ_l c_l · g_l` (Proof/Pooling.lean states these functions). The result `[8, 6, 32, 32, 64]` is transposed and
   merged to `[8, 384, 32, 32]`. The kernel program pools 16 × 32 groups per grid point inside a Pallas region after
   narrowing the table to bf16 — the identity on the extended reals —, the reference pools with whole-array host
   operations; every reduction of either program reads, at an index, as the same sum or maximum over a group, so the
   two results are one function of the arguments and no property of the inputs is used.
   Proof/KernelRow.lean reads the kernel body group by group, Proof/KernelArray.lean takes its blocks to the result
   array, Proof/KernelRun.lean reads the host operations around the region, Proof/RefRow.lean reads the reference
   group by group, Proof/Claims.lean states the five claims; Proof/LibAxisRead.lean holds the layout and reduction
   lemmas they share. The programs' stated side conditions are witnessed by the generated Proof/Gen/ instances. -/
import proofs.«151780_j1537598292345_2_alg».proof.Defs
import proofs.«151780_j1537598292345_2_alg».proof.Proof.Gen.Kernel
import proofs.«151780_j1537598292345_2_alg».proof.Proof.Gen.Kernel.Skeleton
import proofs.«151780_j1537598292345_2_alg».proof.Proof.Gen.Kernel.Launch
import proofs.«151780_j1537598292345_2_alg».proof.Proof.Gen.Kernel.Points
import proofs.«151780_j1537598292345_2_alg».proof.Proof.Gen.Kernel.Frame
import proofs.«151780_j1537598292345_2_alg».proof.Proof.Gen.KernelIdeal
import proofs.«151780_j1537598292345_2_alg».proof.Proof.Gen.KernelIdeal.Skeleton
import proofs.«151780_j1537598292345_2_alg».proof.Proof.Gen.KernelIdeal.Launch
import proofs.«151780_j1537598292345_2_alg».proof.Proof.Gen.KernelIdeal.Points
import proofs.«151780_j1537598292345_2_alg».proof.Proof.Gen.KernelIdeal.Frame
import proofs.«151780_j1537598292345_2_alg».proof.Proof.Gen.ReferenceIdeal
import proofs.«151780_j1537598292345_2_alg».proof.Proof.Gen.Pre_finite_inputs
import proofs.«151780_j1537598292345_2_alg».proof.Proof.Gen.ReferenceIdeal.Run
import proofs.«151780_j1537598292345_2_alg».proof.Proof.Gen.ReferenceIdeal.Read
import proofs.«151780_j1537598292345_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    PoolClaims.frame_k, PoolClaims.frame_ki, PoolClaims.frame_ri, PoolClaims.preserves, PoolClaims.algebraic⟩

end Cert.Proof

end
